-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S4000x64 : Shape := ⟨2, ![4000, 64]⟩
abbrev S4000x128 : Shape := ⟨2, ![4000, 128]⟩
abbrev S1x128 : Shape := ⟨2, ![1, 128]⟩
abbrev S1600000x128 : Shape := ⟨2, ![1600000, 128]⟩
abbrev S100000x40 : Shape := ⟨2, ![100000, 40]⟩
abbrev S4000x40 : Shape := ⟨2, ![4000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 39
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x40, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S128, .f32⟩
  | .local _ .vmem, ⟨6, _⟩ => ⟨S4000x128, .bf16⟩
  | .local _ .vmem, ⟨7, _⟩ => ⟨S4000x128, .bf16⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S128x40, .f32⟩
  | .local _ .vmem, ⟨13, _⟩ => ⟨S40, .f32⟩
  | .local _ .vmem, ⟨14, _⟩ => ⟨S4000x40, .f32⟩
  | .local _ .vmem, ⟨15, _⟩ => ⟨S4000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x40.size a ≤ S100000x40.size a
  hwx1_4 : ∀ i : grid1.Coords, EltTy.bits .f32 = 32 ∨ (Rect.block (s := S100000x40) S4000x40.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S4000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x40, .f32⟩
  | .hbm, ⟨46, _⟩ => ⟨S1x40, .f32⟩
  | .hbm, ⟨47, _⟩ => ⟨S100000x40, .f32⟩
  | .hbm, ⟨48, _⟩ => ⟨S100000x40, .f32⟩
  | .hbm, ⟨49, _⟩ => ⟨S_, .f32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x40, .f32⟩
  | .hbm, ⟨56, _⟩ => ⟨S100000x40, .f32⟩
  | .hbm, ⟨57, _⟩ => ⟨S100000x40, .f32⟩
  | .hbm, ⟨58, _⟩ => ⟨S_, .f32⟩
  | .hbm, ⟨59, _⟩ => ⟨S100000, .f32⟩
  | .hbm, ⟨60, _⟩ => ⟨S100000x1, .f32⟩
  | .hbm, ⟨61, _⟩ => ⟨S100000x1, .f32⟩
  | .hbm, ⟨62, _⟩ => ⟨S100000x40, .f32⟩
  | .hbm, ⟨63, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v35 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result array named.

  @main is four segments: the host operations that build the first neighbour aggregate, the first kernel launch
  (25 blocks of 4000 rows), the host operations that build the second aggregate from the hidden layer, and the
  second launch. After the last segment every unscoped buffer holds the contents the segments' fold leaves
  (`Gen.W4`); the frame keeps only the six arguments out of that, here the result buffer is kept too: it ends at
  `Gen.W4 m ρ c` read at the result's reference, which the value modules open segment by segment.
-/
import proofs.«162975_j41360535060554_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the six arguments end as launched. -/
theorem run_result : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The two kernel bodies read at an index of the block they store.

  Both bodies take a block of 4000 rows: they add the rows' features to the rows' neighbour aggregate, multiply
  by the whole weight matrix (a product accumulated into zero, so the plain sum over the contracted axis) and add
  the bias row. The first body then takes `max · 0`; the second subtracts the row's maximum over the 40
  columns, and then the logarithm of the row's sum of exponentials. Changes of float format are the identity on
  the extended reals.
-/
import proofs.«162975_j41360535060554_2_alg».proof.Proof.Gen.KernelIdeal.Skeleton
import proofs.«162975_j41360535060554_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

theorem matmul_hidden_apply_lhs0 (i : S4000x128.Idx) (c : dot_S4000x64_S64x128_S4000x128_1_0_0_1_n_n.contr.Idx) : (dot_S4000x64_S64x128_S4000x128_1_0_0_1_n_n.lhsIdx i c 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem matmul_hidden_apply_rhs1 (i : S4000x128.Idx) (c : dot_S4000x64_S64x128_S4000x128_1_0_0_1_n_n.contr.Idx) : (dot_S4000x64_S64x128_S4000x128_1_0_0_1_n_n.rhsIdx i c 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The first body's product at row `p`, column `q`: the sum over the 64 input features. -/
theorem matmul_hidden_apply (l : FVec Ideal S4000x64 .bf16) (r : FVec Ideal S64x128 .bf16) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun a => Fin.ext (by
    match a with
    | ⟨0, _⟩ => exact matmul_hidden_apply_lhs0 _ _
    | ⟨1, _⟩ => exact (dot_S4000x64_S64x128_S4000x128_1_0_0_1_n_n.lhsIdx_val_of_single rfl _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun a => Fin.ext (by
    match a with
    | ⟨0, _⟩ => exact (dot_S4000x64_S64x128_S4000x128_1_0_0_1_n_n.rhsIdx_val_of_single rfl _ _).trans hk
    | ⟨1, _⟩ => exact matmul_hidden_apply_rhs1 _ _)
  rw [el, er]

theorem matmul_logits_apply_lhs0 (i : S4000x40.Idx) (c : dot_S4000x128_S128x40_S4000x40_1_0_0_1_n_n.contr.Idx) : (dot_S4000x128_S128x40_S4000x40_1_0_0_1_n_n.lhsIdx i c 0).val = (i 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
theorem matmul_logits_apply_rhs1 (i : S4000x40.Idx) (c : dot_S4000x128_S128x40_S4000x40_1_0_0_1_n_n.contr.Idx) : (dot_S4000x128_S128x40_S4000x40_1_0_0_1_n_n.rhsIdx i c 1).val = (i 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- The second body's product at row `p`, column `q`: the sum over the 128 hidden features. -/
theorem matmul_logits_apply (l : FVec Ideal S4000x128 .bf16) (r : FVec Ideal S128x40 .bf16) (p : Fin 4000) (q : Fin 40) :
    matmul dot_S4000x128_S128x40_S4000x40_1_0_0_1_n_n none l r (constant (F := Ideal) S4000x40 .f32 0x00000000#32) (ix2 p q)
      = ∑ k : Fin 128, l (ix2 p k) * r (ix2 k q) := by
  simp only [matmul]
  rw [Ideal.matmul_constant_zero_apply, ← Equiv.sum_comp (contrEquiv1 dot_S4000x128_S128x40_S4000x40_1_0_0_1_n_n 128 rfl rfl).symm]
  refine Finset.sum_congr rfl fun k _ => ?_
  have hk := contrEquiv1_symm_val dot_S4000x128_S128x40_S4000x40_1_0_0_1_n_n 128 rfl rfl k
  have el : dot_S4000x128_S128x40_S4000x40_1_0_0_1_n_n.lhsIdx (ix2 p q) ((contrEquiv1 dot_S4000x128_S128x40_S4000x40_1_0_0_1_n_n 128 rfl rfl).symm k) = ix2 p k := funext fun a => Fin.ext (by
    match a with
    | ⟨0, _⟩ => exact matmul_logits_apply_lhs0 _ _
    | ⟨1, _⟩ => exact (dot_S4000x128_S128x40_S4000x40_1_0_0_1_n_n.lhsIdx_val_of_single rfl _ _).trans hk)
  have er : dot_S4000x128_S128x40_S4000x40_1_0_0_1_n_n.rhsIdx (ix2 p q) ((contrEquiv1 dot_S4000x128_S128x40_S4000x40_1_0_0_1_n_n 128 rfl rfl).symm k) = ix2 k q := funext fun a => Fin.ext (by
    match a with
    | ⟨0, _⟩ => exact (dot_S4000x128_S128x40_S4000x40_1_0_0_1_n_n.rhsIdx_val_of_single rfl _ _).trans hk
    | ⟨1, _⟩ => exact matmul_logits_apply_rhs1 _ _)
  rw [el, er]

/-- The first body's stored block at row `p`, column `q`: `max ((x0 + x1)·x2 + x3) 0`. -/
theorem hidden_block_apply (x0 x1 : Vec Ideal S4000x64 .f32) (x2 : Vec Ideal S64x128 .f32) (x3 : Vec Ideal S128 .f32)
    (p : Fin 4000) (q : Fin 128) :
    k0_pay1 (F := Ideal) x0 x1 x2 x3 (ix2 p q)
      = max ((∑ k : Fin 64, (x0 (ix2 p k) + x1 (ix2 p k)) * x2 (ix2 k q)) + x3 (ix1 q)) (Ideal.ofBits .f32 0x00000000#32) := by
  unfold k0_pay1
  show max (matmul dot_S4000x64_S64x128_S4000x128_1_0_0_1_n_n none
        (truncf .bf16 (addf x0 (shapeCast S4000x64 x1 shapeCasts_S4000x64_S4000x64)) bitsLt_bf16_f32)
        (truncf .bf16 x2 bitsLt_bf16_f32) (constant (F := Ideal) S4000x128 .f32 0x00000000#32) (ix2 p q)
      + broadcastTo S4000x128 (shapeCast S1x128 x3 shapeCasts_S128_S1x128) broadcasts_S1x128_S4000x128 (ix2 p q))
    (Ideal.ofBits .f32 0x00000000#32) = _
  rw [matmul_hidden_apply, broadcastTo_1b_ab_apply, shapeCast_a_1a_apply, shapeCast_self]
  rfl

/-! ## The second body -/

/-- The second body's logits over its block of 4000 rows, as the body computes them. -/
def blockLogits (x0 : Vec Ideal S4000x128 .bf16) (x1 : Vec Ideal S4000x128 .f32) (x2 : Vec Ideal S128x40 .f32)
    (x3 : Vec Ideal S40 .f32) : FVec Ideal S4000x40 .f32 :=
  addf (matmul dot_S4000x128_S128x40_S4000x40_1_0_0_1_n_n none
      (truncf .bf16 (addf (extf .f32 (shapeCast S4000x128 x0 shapeCasts_S4000x128_S4000x128) bitsLt_bf16_f32)
        (shapeCast S4000x128 x1 shapeCasts_S4000x128_S4000x128)) bitsLt_bf16_f32)
      (truncf .bf16 x2 bitsLt_bf16_f32) (constant (F := Ideal) S4000x40 .f32 0x00000000#32))
    (broadcastTo S4000x40 (shapeCast S1x40 x3 shapeCasts_S40_S1x40) broadcasts_S1x40_S4000x40)

/-- They are `(x0 + x1)·x2 + x3` at row `p`, column `q`. -/
theorem blockLogits_apply (x0 : Vec Ideal S4000x128 .bf16) (x1 : Vec Ideal S4000x128 .f32) (x2 : Vec Ideal S128x40 .f32)
    (x3 : Vec Ideal S40 .f32) (p : Fin 4000) (q : Fin 40) :
    blockLogits x0 x1 x2 x3 (ix2 p q) = (∑ k : Fin 128, (x0 (ix2 p k) + x1 (ix2 p k)) * x2 (ix2 k q)) + x3 (ix1 q) := by
  unfold blockLogits
  show matmul dot_S4000x128_S128x40_S4000x40_1_0_0_1_n_n none
        (truncf .bf16 (addf (extf .f32 (shapeCast S4000x128 x0 shapeCasts_S4000x128_S4000x128) bitsLt_bf16_f32)
          (shapeCast S4000x128 x1 shapeCasts_S4000x128_S4000x128)) bitsLt_bf16_f32)
        (truncf .bf16 x2 bitsLt_bf16_f32) (constant (F := Ideal) S4000x40 .f32 0x00000000#32) (ix2 p q)
      + broadcastTo S4000x40 (shapeCast S1x40 x3 shapeCasts_S40_S1x40) broadcasts_S1x40_S4000x40 (ix2 p q) = _
  rw [matmul_logits_apply, broadcastTo_1b_ab_apply, shapeCast_a_1a_apply, shapeCast_self, shapeCast_self]
  rfl

/-- A block row's maximum over its 40 columns: the fold of `max` from -∞. -/
def blockRowMax (L : FVec Ideal S4000x40 .f32) (p : Fin 4000) : EReal :=
  (Finset.univ : Finset (Fin 40)).fold max (Ideal.ofBits .f32 0xFF800000#32) (fun k => L (ix2 p k))

/-- The lane maximum the body takes along the columns, at row `p`. -/
theorem rowMax_apply (L : FVec Ideal S4000x40 .f32) (hφ : FKind.Formats .f32)
    (hm : (0xFF800000#32 : BitVec FTy.f32.bits) = FKind.maximumf.neutral .f32 hφ) (p : Fin 4000) :
    multiReduction (F := Ideal) .maximumf [1] S4000 L 0xFF800000#32 reduces_S4000x40_S4000 hφ hm (ix1 p) = blockRowMax L p := by
  refine (Ideal.multiReduction_maximumf_single L _ reduces_S4000x40_S4000 hφ hm (ix1 p)).trans ?_
  unfold blockRowMax
  refine congrArg (fun f => (Finset.univ : Finset (Fin 40)).fold max (Ideal.ofBits .f32 0xFF800000#32) f)
    (funext fun k => congrArg L (funext fun a => Fin.ext ?_))
  match a with
  | ⟨0, _⟩ => rfl
  | ⟨1, _⟩ => rfl

/-- The lane sum the body takes along the columns, at row `p`. -/
theorem rowSum_apply (E : FVec Ideal S4000x40 .f32) (hφ : FKind.Formats .f32)
    (hs : (0x00000000#32 : BitVec FTy.f32.bits) = FKind.add.neutral .f32 hφ) (p : Fin 4000) :
    multiReduction (F := Ideal) .add [1] S4000 E 0x00000000#32 reduces_S4000x40_S4000 hφ hs (ix1 p) = ∑ k : Fin 40, E (ix2 p k) := by
  refine (Ideal.multiReduction_add_single E _ reduces_S4000x40_S4000 hφ hs (ix1 p)).trans ?_
  refine Finset.sum_congr rfl fun k _ => congrArg E (funext fun a => Fin.ext ?_)
  match a with
  | ⟨0, _⟩ => rfl
  | ⟨1, _⟩ => rfl

/-- The row maxima re-laid as a column and spread back over the 40 columns. -/
def spreadMax (L : FVec Ideal S4000x40 .f32) (hφ : FKind.Formats .f32)
    (hm : (0xFF800000#32 : BitVec FTy.f32.bits) = FKind.maximumf.neutral .f32 hφ) : FVec Ideal S4000x40 .f32 :=
  broadcastTo S4000x40 (shapeCast S4000x1
    (multiReduction (F := Ideal) .maximumf [1] S4000 L 0xFF800000#32 reduces_S4000x40_S4000 hφ hm) shapeCasts_S4000_S4000x1)
    broadcasts_S4000x1_S4000x40

theorem spreadMax_apply (L : FVec Ideal S4000x40 .f32) (hφ : FKind.Formats .f32)
    (hm : (0xFF800000#32 : BitVec FTy.f32.bits) = FKind.maximumf.neutral .f32 hφ) (p : Fin 4000) (k : Fin 40) :
    spreadMax L hφ hm (ix2 p k) = blockRowMax L p := by
  unfold spreadMax
  rw [Cert.LibColumn.broadcastTo_a1_ab_apply, Cert.LibColumn.shapeCast_a_a1_apply, rowMax_apply]

/-- The logarithms of the row sums re-laid as a column and spread back over the 40 columns. -/
def spreadLogSum (E : FVec Ideal S4000x40 .f32) (hφ : FKind.Formats .f32)
    (hs : (0x00000000#32 : BitVec FTy.f32.bits) = FKind.add.neutral .f32 hφ) : FVec Ideal S4000x40 .f32 :=
  broadcastTo S4000x40 (log (shapeCast S4000x1
    (multiReduction (F := Ideal) .add [1] S4000 E 0x00000000#32 reduces_S4000x40_S4000 hφ hs) shapeCasts_S4000_S4000x1))
    broadcasts_S4000x1_S4000x40

theorem spreadLogSum_apply (E : FVec Ideal S4000x40 .f32) (hφ : FKind.Formats .f32)
    (hs : (0x00000000#32 : BitVec FTy.f32.bits) = FKind.add.neutral .f32 hφ) (p : Fin 4000) (k : Fin 40) :
    spreadLogSum E hφ hs (ix2 p k) = Ideal.log (∑ j : Fin 40, E (ix2 p j)) := by
  unfold spreadLogSum
  rw [Cert.LibColumn.broadcastTo_a1_ab_apply]
  show Ideal.log (shapeCast S4000x1
    (multiReduction (F := Ideal) .add [1] S4000 E 0x00000000#32 reduces_S4000x40_S4000 hφ hs) shapeCasts_S4000_S4000x1 (ix2 p (0 : Fin 1))) = _
  rw [Cert.LibColumn.shapeCast_a_a1_apply, rowSum_apply]

/-- The second body's stored block at row `p`, column `q`: the logits shifted by the row's maximum, minus the
    logarithm of the row's sum of exponentials of the shifted logits. -/
theorem logsoftmax_block_apply (x0 : Vec Ideal S4000x128 .bf16) (x1 : Vec Ideal S4000x128 .f32) (x2 : Vec Ideal S128x40 .f32)
    (x3 : Vec Ideal S40 .f32) (p : Fin 4000) (q : Fin 40) :
    k1_pay1 (F := Ideal) x0 x1 x2 x3 (ix2 p q)
      = (blockLogits x0 x1 x2 x3 (ix2 p q) - blockRowMax (blockLogits x0 x1 x2 x3) p)
        - Ideal.log (∑ k : Fin 40, Ideal.exp (blockLogits x0 x1 x2 x3 (ix2 p k) - blockRowMax (blockLogits x0 x1 x2 x3) p)) := by
  unfold k1_pay1
  show (blockLogits x0 x1 x2 x3 (ix2 p q) - spreadMax (blockLogits x0 x1 x2 x3) _ _ (ix2 p q))
      - spreadLogSum (exp (subf (blockLogits x0 x1 x2 x3) (spreadMax (blockLogits x0 x1 x2 x3) _ _))) _ _ (ix2 p q) = _
  refine congrArg₂ (· - ·)
    (congrArg (blockLogits x0 x1 x2 x3 (ix2 p q) - ·) (spreadMax_apply _ _ _ p q))
    ((spreadLogSum_apply _ _ _ p q).trans ?_)
  refine congrArg Ideal.log (Finset.sum_congr rfl fun k _ => ?_)
  exact congrArg (fun z => Ideal.exp (blockLogits x0 x1 x2 x3 (ix2 p k) - z)) (spreadMax_apply _ _ _ p k)

end Cert.KernelIdeal.Payload

end
-- ==== Proof.GinSpec.lean ====
/-
  The function both programs compute, index by index, on the extended reals.

  A two-layer graph isomorphism network over 100000 nodes. Each layer adds to a node's features the sum of its
  neighbours' features (the aggregate `a`, which both programs obtain by the same gather and scatter-add and which
  is therefore an ARGUMENT here), multiplies by a weight matrix and adds a bias:
      linear h a W b (r, c) = (∑ q, (h (r, q) + a (r, q)) · W (q, c)) + b c .
  The first layer is followed by `max · 0`; the second by a row-wise log-softmax taken against the row's maximum
  `M r = max_q L (r, q)` (a fold of `max` from -∞ over the 40 columns):
      out (r, c) = (L (r, c) - M r) - log (∑ q, exp (L (r, q) - M r)) .
  The zero of the rectifier and the -∞ the fold starts from are kept as the float words the programs print
  (`0x00000000`, `0xFF800000`): the same word on both sides is never evaluated.
-/
import Idealize.ShloMosaic.PureOps.Ideal
import Idealize.ShloMosaic.Lib.ValueIdx
import Mathlib.Data.Finset.Fold

noncomputable section

namespace Cert.GinSpec

open Idealize.ShloMosaic Idealize.ShloMosaic.ValueIdx
open scoped BigOperators

/-- The hidden layer: `max ((x + a)·W + b) 0` at row `i 0`, column `i 1`; 64 input features, 128 hidden. -/
def hidden (x a : (⟨2, ![100000, 64]⟩ : Shape).Idx → EReal) (W : (⟨2, ![64, 128]⟩ : Shape).Idx → EReal)
    (b : (⟨1, ![128]⟩ : Shape).Idx → EReal) : (⟨2, ![100000, 128]⟩ : Shape).Idx → EReal :=
  fun i => max ((∑ q : Fin 64, (x (ix2 (i 0) q) + a (ix2 (i 0) q)) * W (ix2 q (i 1))) + b (ix1 (i 1)))
    (Ideal.ofBits .f32 0x00000000#32)

/-- The output layer before the softmax: `(h + a)·W + b`; 128 hidden features, 40 classes. -/
def logits (h a : (⟨2, ![100000, 128]⟩ : Shape).Idx → EReal) (W : (⟨2, ![128, 40]⟩ : Shape).Idx → EReal)
    (b : (⟨1, ![40]⟩ : Shape).Idx → EReal) : (⟨2, ![100000, 40]⟩ : Shape).Idx → EReal :=
  fun i => (∑ q : Fin 128, (h (ix2 (i 0) q) + a (ix2 (i 0) q)) * W (ix2 q (i 1))) + b (ix1 (i 1))

/-- A row's maximum over its 40 columns: the fold of `max` from -∞. -/
def rowMax (L : (⟨2, ![100000, 40]⟩ : Shape).Idx → EReal) (r : Fin 100000) : EReal :=
  (Finset.univ : Finset (Fin 40)).fold max (Ideal.ofBits .f32 0xFF800000#32) (fun q => L (ix2 r q))

/-- The row-wise log-softmax, shifted by the row's maximum. -/
def logSoftmax (L : (⟨2, ![100000, 40]⟩ : Shape).Idx → EReal) : (⟨2, ![100000, 40]⟩ : Shape).Idx → EReal :=
  fun i => (L i - rowMax L (i 0)) - Ideal.log (∑ q : Fin 40, Ideal.exp (L (ix2 (i 0) q) - rowMax L (i 0)))

/-- Folding `max` from a value never goes below it, so a further `max` against that value changes nothing
    (the reference takes the row maximum once more against -∞). -/
theorem max_fold_start {ι : Type} (s : Finset ι) (b : EReal) (f : ι → EReal) :
    max b (s.fold max b f) = s.fold max b f :=
  max_eq_right ((Finset.le_fold_max (s := s) (b := b) (f := f) (c := b)).2 (Or.inl le_rfl))

end Cert.GinSpec

end
-- ==== Proof.KernelHidden.lean ====
/-
  The first launch, from blocks to the whole array.

  The launch visits 25 grid points; point `t` reads rows `4000 t … 4000 t + 3999` of the node features and of
  their neighbour aggregate, the whole weight matrix and the whole bias, and writes the same rows of the hidden
  layer. So what point `t` writes back is block `t` of ONE function of the arrays the launch finds — the hidden
  layer of the specification — and since the 25 blocks cover all 100000 rows, the output array ends holding that
  function.
-/
import proofs.«162975_j41360535060554_2_alg».proof.Proof.Gen.KernelIdeal.Frame
import proofs.«162975_j41360535060554_2_alg».proof.Proof.KernelPayload
import proofs.«162975_j41360535060554_2_alg».proof.Proof.GinSpec
import Idealize.ShloMosaic.Lib.Pipeline.Value

set_option maxRecDepth 16384

noncomputable section

namespace Cert.KernelIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

/-- The hidden layer of the specification from a block's reads: if the block's loaded values are the arrays' values
    at row `i 0` (and the weights and bias are read whole), the body's stored value at `(p, q)` is the hidden
    layer at `i`. -/
theorem hidden_of_reads (X A : S100000x64.Idx → EReal) (W : S64x128.Idx → EReal) (B : S128.Idx → EReal)
    (x0 x1 : Vec Ideal S4000x64 .f32) (x2 : Vec Ideal S64x128 .f32) (x3 : Vec Ideal S128 .f32)
    (i : S100000x128.Idx) (p : Fin 4000) (q : Fin 128)
    (h0 : ∀ k : Fin 64, x0 (ix2 p k) = X (ix2 (i 0) k))
    (h1 : ∀ k : Fin 64, x1 (ix2 p k) = A (ix2 (i 0) k))
    (h2 : ∀ k : Fin 64, x2 (ix2 k q) = W (ix2 k (i 1)))
    (h3 : x3 (ix1 q) = B (ix1 (i 1))) :
    k0_pay1 (F := Ideal) x0 x1 x2 x3 (ix2 p q) = Cert.GinSpec.hidden X A W B i := by
  rw [Cert.KernelIdeal.Payload.hidden_block_apply]
  unfold Cert.GinSpec.hidden
  simp only [h0, h1, h2, h3]

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output sit at block `t` of the row
    axis and block 0 of the feature axis; the weights and the bias are at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What point `t` writes back is block `t` of the hidden layer of the arrays the launch finds. -/
theorem flushed_eq (c : Dev nD) (t : Fin cfg0.N) :
    (dat0 V c).flushed 4 t = ((cfg0.win 4).blk t).view.read (Elt Ideal)
      (Cert.GinSpec.hidden (V c main_arg0) (V c main_v13) (V c main_arg2) (V c main_arg3)) := by
  show (cfg0.win 4).cut (grid0.coords t) ((dat0 V c).after 4 t) = _
  rw [after0_4]
  unfold out0_4
  rw [View.canon_unit_zero hz2]
  simp only [View.ld_unit_zero (S := S4000x64) hz2, View.ld_unit_zero (S := S64x128) hz2, View.ld_unit_zero (S := S128) hz1]
  obtain ⟨e00, e01, e10, e11, e20, e21, e30, e40, e41⟩ := idx_facts t
  funext j
  obtain ⟨p, q, rfl⟩ : ∃ (p : Fin 4000) (q : Fin 128), j = ix2 p q := ⟨j 0, j 1, eq_ix2 j⟩
  refine hidden_of_reads (V c main_arg0) (V c main_v13) (V c main_arg2) (V c main_arg3)
    (iblk0 V c 0 t) (iblk0 V c 1 t) (iblk0 V c 2 t) (iblk0 V c 3 t)
    (((cfg0.win 4).blk t).view.emb (ix2 p q)) p q ?_ ?_ ?_ ?_
  · intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 4000 + 1 * p.val = win0_4.index t (0 : Fin 2) * 4000 + 1 * p.val; omega
    | ⟨1, _⟩ => show win0_0.index t (1 : Fin 2) * 64 + 1 * k.val = k.val; omega
  · intro k
    show V c main_v13 (((cfg0.win 1).blk t).view.emb (ix2 p k)) = V c main_v13 _
    refine congrArg (V c main_v13) (funext fun a => Fin.ext ?_)
    match a with
    | ⟨0, _⟩ => show win0_1.index t (0 : Fin 2) * 4000 + 1 * p.val = win0_4.index t (0 : Fin 2) * 4000 + 1 * p.val; omega
    | ⟨1, _⟩ => show win0_1.index t (1 : Fin 2) * 64 + 1 * k.val = k.val; omega
  · intro k
    show V c main_arg2 (((cfg0.win 2).blk t).view.emb (ix2 k q)) = V c main_arg2 _
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 128 + 1 * q.val = win0_4.index t (1 : Fin 2) * 128 + 1 * q.val; omega
  · show V c main_arg3 (((cfg0.win 3).blk t).view.emb (ix1 q)) = V c main_arg3 _
    refine congrArg (V c main_arg3) (funext fun a => Fin.ext ?_)
    match a with
    | ⟨0, _⟩ => show win0_3.index t (0 : Fin 1) * 128 + 1 * q.val = win0_4.index t (1 : Fin 2) * 128 + 1 * q.val; omega

/-- An index of the output array is in point `t`'s block iff each coordinate is in the block's range on its axis. -/
theorem mem_blk (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v14).slice (win0_4.rect t)).set ↔ _
  rw [View.set_slice_whole, Rect.mem_set_unit]
  exact Iff.rfl

/-- Row `r` lies in the block of point `r / 4000`: the 25 blocks cover the array. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨e00, e01, e10, e11, e20, e21, e30, e40, e41⟩ := idx_facts t
  refine ⟨t, flush0_4 t, ?_⟩
  rw [mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- After the launch the output array is the hidden layer of the arrays the launch found. -/
theorem array_eq (c : Dev nD) :
    (dat0 V c).arrAt 4 cfg0.N = Cert.GinSpec.hidden (V c main_arg0) (V c main_v13) (V c main_arg2) (V c main_arg3) :=
  (dat0 V c).arrAt_eq_of_cover 4 _ (fun t _ => flushed_eq V c t) cover

end Cert.KernelIdeal.Hidden

end
-- ==== Proof.KernelSoftmax.lean ====
/-
  The second launch, from blocks to the whole array.

  Again 25 grid points; point `t` reads rows `4000 t … 4000 t + 3999` of the hidden layer and of its neighbour
  aggregate, the whole second weight matrix and bias, and writes the same rows of the result. A row of the result
  depends only on the same row of the two inputs — the logits of that row, their maximum over the 40 columns and
  the sum of their shifted exponentials — so what point `t` writes back is block `t` of the log-softmax of the
  logits of the arrays the launch finds, and the 25 blocks cover the array.
-/
import proofs.«162975_j41360535060554_2_alg».proof.Proof.Gen.KernelIdeal.Frame
import proofs.«162975_j41360535060554_2_alg».proof.Proof.KernelPayload
import proofs.«162975_j41360535060554_2_alg».proof.Proof.GinSpec
import Idealize.ShloMosaic.Lib.Pipeline.Value

set_option maxRecDepth 16384

noncomputable section

namespace Cert.KernelIdeal.Softmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators
open Cert.KernelIdeal.Payload

/-- The result of the specification from a block's reads: if the block's loaded values are the arrays' values at
    row `r` (the weights and bias read whole), the body's stored value at `(p, q)` is the log-softmax of the
    logits at `(r, q)`. -/
theorem logsoftmax_of_reads (H A : S100000x128.Idx → EReal) (W : S128x40.Idx → EReal) (B : S40.Idx → EReal)
    (x0 : Vec Ideal S4000x128 .bf16) (x1 : Vec Ideal S4000x128 .f32) (x2 : Vec Ideal S128x40 .f32) (x3 : Vec Ideal S40 .f32)
    (r : Fin 100000) (p : Fin 4000) (q : Fin 40)
    (h0 : ∀ k : Fin 128, x0 (ix2 p k) = H (ix2 r k))
    (h1 : ∀ k : Fin 128, x1 (ix2 p k) = A (ix2 r k))
    (h2 : ∀ (k : Fin 128) (j : Fin 40), x2 (ix2 k j) = W (ix2 k j))
    (h3 : ∀ j : Fin 40, x3 (ix1 j) = B (ix1 j)) :
    k1_pay1 (F := Ideal) x0 x1 x2 x3 (ix2 p q) = Cert.GinSpec.logSoftmax (Cert.GinSpec.logits H A W B) (ix2 r q) := by
  have hL : ∀ j : Fin 40, blockLogits x0 x1 x2 x3 (ix2 p j) = Cert.GinSpec.logits H A W B (ix2 r j) := fun j => by
    rw [blockLogits_apply]
    unfold Cert.GinSpec.logits
    simp only [h0, h1, h2, h3]
  have hM : blockRowMax (blockLogits x0 x1 x2 x3) p = Cert.GinSpec.rowMax (Cert.GinSpec.logits H A W B) r := by
    unfold blockRowMax Cert.GinSpec.rowMax
    simp only [hL]
  rw [logsoftmax_block_apply]
  unfold Cert.GinSpec.logSoftmax
  simp only [hL, hM]

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output sit at block `t` of the row
    axis and block 0 of the column axis; the weights and the bias are at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of the result of the specification over the arrays the launch finds. -/
theorem flushed_eq (c : Dev nD) (t : Fin cfg1.N) :
    (dat1 V c).flushed 4 t = ((cfg1.win 4).blk t).view.read (Elt Ideal)
      (Cert.GinSpec.logSoftmax (Cert.GinSpec.logits (V c main_v14) (V c main_v25) (V c main_arg4) (V c main_arg5))) := by
  show (cfg1.win 4).cut (grid1.coords t) ((dat1 V c).after 4 t) = _
  rw [after1_4]
  unfold out1_4
  rw [View.canon_unit_zero hz2]
  simp only [View.ld_unit_zero (S := S4000x128) hz2, View.ld_unit_zero (S := S128x40) hz2, View.ld_unit_zero (S := S40) hz1]
  obtain ⟨e00, e01, e10, e11, e20, e21, e30, e40, e41⟩ := idx_facts t
  funext j
  obtain ⟨p, q, rfl⟩ : ∃ (p : Fin 4000) (q : Fin 40), j = ix2 p q := ⟨j 0, j 1, eq_ix2 j⟩
  have hrow : t.val * 4000 + p.val < 100000 := by
    have ht : t.val < 25 := lt_of_lt_of_eq t.isLt N_1
    have := p.isLt; omega
  have hI : ((cfg1.win 4).blk t).view.emb (ix2 p q) = (ix2 (⟨t.val * 4000 + p.val, hrow⟩ : Fin 100000) q : S100000x40.Idx) :=
    funext fun a => Fin.ext (by
      match a with
      | ⟨0, _⟩ => show win1_4.index t (0 : Fin 2) * 4000 + 1 * p.val = t.val * 4000 + p.val; omega
      | ⟨1, _⟩ => show win1_4.index t (1 : Fin 2) * 40 + 1 * q.val = q.val; omega)
  show k1_pay1 (F := Ideal) (iblk1 V c 0 t) (iblk1 V c 1 t) (iblk1 V c 2 t) (iblk1 V c 3 t) (ix2 p q)
    = Cert.GinSpec.logSoftmax (Cert.GinSpec.logits (V c main_v14) (V c main_v25) (V c main_arg4) (V c main_arg5))
        (((cfg1.win 4).blk t).view.emb (ix2 p q))
  rw [hI]
  refine logsoftmax_of_reads (V c main_v14) (V c main_v25) (V c main_arg4) (V c main_arg5)
    (iblk1 V c 0 t) (iblk1 V c 1 t) (iblk1 V c 2 t) (iblk1 V c 3 t)
    ⟨t.val * 4000 + p.val, hrow⟩ p q ?_ ?_ ?_ ?_
  · intro k
    show V c main_v14 (((cfg1.win 0).blk t).view.emb (ix2 p k)) = V c main_v14 _
    refine congrArg (V c main_v14) (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  · intro k
    show V c main_v25 (((cfg1.win 1).blk t).view.emb (ix2 p k)) = V c main_v25 _
    refine congrArg (V c main_v25) (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  · intro k j
    show V c main_arg4 (((cfg1.win 2).blk t).view.emb (ix2 k j)) = V c main_arg4 _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 40 + 1 * j.val = j.val; omega
  · intro j
    show V c main_arg5 (((cfg1.win 3).blk t).view.emb (ix1 j)) = V c main_arg5 _
    refine congrArg (V c main_arg5) (funext fun a => Fin.ext ?_)
    match a with
    | ⟨0, _⟩ => show win1_3.index t (0 : Fin 1) * 40 + 1 * j.val = j.val; omega

/-- An index of the output array is in point `t`'s block iff each coordinate is in the block's range on its axis. -/
theorem mem_blk (t : Fin cfg1.N) (i : S100000x40.Idx) :
    i ∈ ((cfg1.win 4).blk t).view.set ↔ ∀ a : Fin 2, win1_4.index t a * S4000x40.size a ≤ (i a).val ∧ (i a).val < win1_4.index t a * S4000x40.size a + S4000x40.size a := by
  show i ∈ ((View.whole main_v26).slice (win1_4.rect t)).set ↔ _
  rw [View.set_slice_whole, Rect.mem_set_unit]
  exact Iff.rfl

/-- Row `r` lies in the block of point `r / 4000`: the 25 blocks cover the array. -/
theorem cover (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  obtain ⟨t, ht⟩ : ∃ t : Fin cfg1.N, t.val = (i 0).val / 4000 :=
    ⟨⟨(i 0).val / 4000, by show (i 0).val / 4000 < grid1.N; rw [N_1]; omega⟩, rfl⟩
  obtain ⟨e00, e01, e10, e11, e20, e21, e30, e40, e41⟩ := idx_facts t
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 40 ≤ (i 1).val ∧ (i 1).val < win1_4.index t (1 : Fin 2) * 40 + 40; omega

/-- After the launch the output array is the result of the specification over the arrays the launch found. -/
theorem array_eq (c : Dev nD) :
    (dat1 V c).arrAt 4 cfg1.N
      = Cert.GinSpec.logSoftmax (Cert.GinSpec.logits (V c main_v14) (V c main_v25) (V c main_arg4) (V c main_arg5)) :=
  (dat1 V c).arrAt_eq_of_cover 4 _ (fun t _ => flushed_eq V c t) cover

end Cert.KernelIdeal.Softmax

end
-- ==== Proof.KernelStages.lean ====
/-
  The idealized kernel's result, segment by segment.

  The first stretch of host operations slices the edge list into its source row and its destination row, gathers
  the node features of each edge's source and scatter-adds them at the edge's destination: the first aggregate.
  The first launch leaves the hidden layer of the node features and that aggregate. The second stretch does the
  same gather and scatter-add on the hidden layer (read back at the wider float format, which changes nothing on
  the extended reals): the second aggregate. The second launch leaves the log-softmax of the logits of the hidden
  layer and the second aggregate. The arguments are never written.
-/
import proofs.«162975_j41360535060554_2_alg».proof.Proof.Gen.KernelIdeal.Frame
import proofs.«162975_j41360535060554_2_alg».proof.Proof.KernelHidden
import proofs.«162975_j41360535060554_2_alg».proof.Proof.KernelSoftmax
import Idealize.ShloMosaic.Lib.StableHlo.Run

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

/-! ## The neighbour aggregation, as the host operations spell it -/

/-- Each edge's source node: row 0 of the edge list. -/
def edgeSrc (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Each edge's destination node: row 1 of the edge list. -/
def edgeDst (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The rows a gather reads: a negative source index counts from the end (100000 is added to it). -/
def gatherRows (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The first aggregate: the features of every edge's source, summed at the edge's destination, from zero. -/
def aggregate64 (x : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 x (gatherRows s))

/-- The second aggregate: the same over the hidden layer. -/
def aggregate128 (h : (⟨S100000x128, .bf16⟩ : BufTy).Contents (Elt Ideal)) (s d : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf .f32 (Host.gather gather_S100000x128_S1600000x1_S1600000x128_1_0_n_n_0_1_1128 h (gatherRows s)) bitsLt_bf16_f32)

variable (m : (ℓ : Loc nD τ sig) → Buf (Elt Ideal) ℓ) (ρ : Dev nD → PrngReg)

/-! ## The first stretch: what the first launch finds -/

theorem entry1_arg0 (c : Dev nD) : V1 m ρ c main_arg0 = m ((c : Thread nD τ).loc main_arg0) := by
  show StableHlo.after hostOps0 (W0 m ρ c) (Proc.devRef .tc main_arg0) = _
  after_results_simp <;> rfl
theorem entry1_arg2 (c : Dev nD) : V1 m ρ c main_arg2 = m ((c : Thread nD τ).loc main_arg2) := by
  show StableHlo.after hostOps0 (W0 m ρ c) (Proc.devRef .tc main_arg2) = _
  after_results_simp <;> rfl
theorem entry1_arg3 (c : Dev nD) : V1 m ρ c main_arg3 = m ((c : Thread nD τ).loc main_arg3) := by
  show StableHlo.after hostOps0 (W0 m ρ c) (Proc.devRef .tc main_arg3) = _
  after_results_simp <;> rfl
theorem entry1_src (c : Dev nD) : W1 m ρ c (Proc.devRef .tc main_v1) = edgeSrc (m ((c : Thread nD τ).loc main_arg1)) := by
  show StableHlo.after hostOps0 (W0 m ρ c) (Proc.devRef .tc main_v1) = _
  after_results_simp <;> rfl
theorem entry1_dst (c : Dev nD) : W1 m ρ c (Proc.devRef .tc main_v3) = edgeDst (m ((c : Thread nD τ).loc main_arg1)) := by
  show StableHlo.after hostOps0 (W0 m ρ c) (Proc.devRef .tc main_v3) = _
  after_results_simp <;> rfl
/-- The first launch finds the first aggregate in its second window's array. -/
theorem entry1_aggregate (c : Dev nD) :
    V1 m ρ c main_v13 = aggregate64 (m ((c : Thread nD τ).loc main_arg0)) (edgeSrc (m ((c : Thread nD τ).loc main_arg1))) (edgeDst (m ((c : Thread nD τ).loc main_arg1))) := by
  show StableHlo.after hostOps0 (W0 m ρ c) (Proc.devRef .tc main_v13) = _
  after_results_simp <;> rfl

/-- The hidden layer, as the first launch leaves it. -/
def hiddenLayer (c : Dev nD) : S100000x128.Idx → EReal :=
  Cert.GinSpec.hidden (m ((c : Thread nD τ).loc main_arg0))
    (aggregate64 (m ((c : Thread nD τ).loc main_arg0)) (edgeSrc (m ((c : Thread nD τ).loc main_arg1))) (edgeDst (m ((c : Thread nD τ).loc main_arg1))))
    (m ((c : Thread nD τ).loc main_arg2)) (m ((c : Thread nD τ).loc main_arg3))

/-- After the first launch its output array holds the hidden layer. -/
theorem exit1_hidden (c : Dev nD) : W2 m ρ c (Proc.devRef .tc main_v14) = hiddenLayer m c := by
  refine (W2_arr m ρ c 4).trans ?_
  rw [Cert.KernelIdeal.Hidden.array_eq (V1 m ρ) c, entry1_arg0, entry1_arg2, entry1_arg3, entry1_aggregate]
  rfl

/-! ## The second stretch: what the second launch finds -/

theorem entry2_hidden (c : Dev nD) : V3 m ρ c main_v14 = hiddenLayer m c := by
  refine Eq.trans ?_ (exit1_hidden m ρ c)
  show StableHlo.after hostOps1 (W2 m ρ c) (Proc.devRef .tc main_v14) = _
  after_results_simp <;> rfl
theorem entry2_arg4 (c : Dev nD) : V3 m ρ c main_arg4 = m ((c : Thread nD τ).loc main_arg4) :=
  ((W4_arr m ρ c 2).trans (((dat1 (V3 m ρ) c).arrAt_in 2 rfl _).trans (A_eq1 (V3 m ρ) c 2))).symm.trans (W4_main_arg4 m ρ c)
theorem entry2_arg5 (c : Dev nD) : V3 m ρ c main_arg5 = m ((c : Thread nD τ).loc main_arg5) :=
  ((W4_arr m ρ c 3).trans (((dat1 (V3 m ρ) c).arrAt_in 3 rfl _).trans (A_eq1 (V3 m ρ) c 3))).symm.trans (W4_main_arg5 m ρ c)
/-- The second launch finds the second aggregate — of the hidden layer — in its second window's array. -/
theorem entry2_aggregate (c : Dev nD) :
    V3 m ρ c main_v25 = aggregate128 (hiddenLayer m c) (edgeSrc (m ((c : Thread nD τ).loc main_arg1))) (edgeDst (m ((c : Thread nD τ).loc main_arg1))) := by
  have key : V3 m ρ c main_v25
      = aggregate128 (W2 m ρ c (Proc.devRef .tc main_v14)) (W2 m ρ c (Proc.devRef .tc main_v1)) (W2 m ρ c (Proc.devRef .tc main_v3)) := by
    show StableHlo.after hostOps1 (W2 m ρ c) (Proc.devRef .tc main_v25) = _
    generalize W2 m ρ c = Wc
    after_results_simp <;> rfl
  have hs : W2 m ρ c (Proc.devRef .tc main_v1) = edgeSrc (m ((c : Thread nD τ).loc main_arg1)) :=
    (W2_of_ne m ρ c main_v1 (by decide)).trans (entry1_src m ρ c)
  have hd : W2 m ρ c (Proc.devRef .tc main_v3) = edgeDst (m ((c : Thread nD τ).loc main_arg1)) :=
    (W2_of_ne m ρ c main_v3 (by decide)).trans (entry1_dst m ρ c)
  rw [key, exit1_hidden m ρ c, hs, hd]

/-! ## The result -/

/-- The whole result: the log-softmax of the logits of the hidden layer and its aggregate. -/
def result (c : Dev nD) : S100000x40.Idx → EReal :=
  Cert.GinSpec.logSoftmax (Cert.GinSpec.logits (hiddenLayer m c)
    (aggregate128 (hiddenLayer m c) (edgeSrc (m ((c : Thread nD τ).loc main_arg1))) (edgeDst (m ((c : Thread nD τ).loc main_arg1))))
    (m ((c : Thread nD τ).loc main_arg4)) (m ((c : Thread nD τ).loc main_arg5)))

/-- After the last segment the result buffer holds it. -/
theorem exit2_result (c : Dev nD) : W4 m ρ c (Proc.devRef .tc main_v26) = result m c := by
  refine (W4_arr m ρ c 4).trans ?_
  rw [Cert.KernelIdeal.Softmax.array_eq (V3 m ρ) c, entry2_hidden, entry2_aggregate, entry2_arg4, entry2_arg5]
  rfl

end Cert.KernelIdeal.Stages

end
-- ==== Proof.ReferenceSpec.lean ====
/-
  The reference program is the specification.

  Read one operation at a time, the reference computes: the first aggregate `a₁` (a gather and a scatter-add, kept
  as the program spells them); `max ((x + a₁)·W₁ + b₁) 0`, the hidden layer; the second aggregate `a₂` of the hidden
  layer; the logits `(h + a₂)·W₂ + b₂`; each row's maximum over the 40 columns (a fold of `max` from -∞, after which
  the program takes `max` against -∞ once more, which changes nothing); and the logits shifted by the row maximum
  minus the logarithm of the row's sum of shifted exponentials (the sum starts from the zero word, which is 0).
-/
import proofs.«162975_j41360535060554_2_alg».proof.Proof.ReferenceReadP
import proofs.«162975_j41360535060554_2_alg».proof.Proof.GinSpec
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx
open scoped BigOperators

/-- The hidden layer: the reference's rectified first layer is the specification's, over its own first aggregate. -/
theorem hidden_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) :
    val_main_v19 (F := Ideal) x0 x1 x2 x3 = Cert.GinSpec.hidden x0 (val_main_v13 (F := Ideal) x0 x1) x2 x3 := by
  funext i
  have el : ∀ k : Fin 64, lidx_main_v15 i k = ix2 (i 0) k := fun k => funext fun a => Fin.ext (by
    match a with | ⟨0, _⟩ => rfl | ⟨1, _⟩ => rfl)
  have er : ∀ k : Fin 64, ridx_main_v15 i k = ix2 k (i 1) := fun k => funext fun a => Fin.ext (by
    match a with | ⟨0, _⟩ => rfl | ⟨1, _⟩ => rfl)
  have eb : idx_main_v16 (idx_main_v17 i) = ix1 (i 1) := funext fun a => Fin.ext (by
    match a with | ⟨0, _⟩ => rfl)
  rw [val_main_v19_apply, val_main_v18_apply, val_main_v15_apply, val_main_v17_apply, val_main_v16_apply,
    val_main_call0_v0_apply, val_main_call0_cst_apply]
  unfold Cert.GinSpec.hidden
  simp only [el, er, eb, val_main_v14_apply]
  rfl

/-- The logits: the reference's second layer before the softmax is the specification's, over its own hidden layer
    and second aggregate. -/
theorem logits_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v34 (F := Ideal) x0 x1 x2 x3 x4 x5 = Cert.GinSpec.logits (val_main_v19 (F := Ideal) x0 x1 x2 x3) (val_main_v29 (F := Ideal) x0 x1 x2 x3) x4 x5 := by
  funext i
  have el : ∀ k : Fin 128, lidx_main_v31 i k = ix2 (i 0) k := fun k => funext fun a => Fin.ext (by
    match a with | ⟨0, _⟩ => rfl | ⟨1, _⟩ => rfl)
  have er : ∀ k : Fin 128, ridx_main_v31 i k = ix2 k (i 1) := fun k => funext fun a => Fin.ext (by
    match a with | ⟨0, _⟩ => rfl | ⟨1, _⟩ => rfl)
  have eb : idx_main_v32 (idx_main_v33 i) = ix1 (i 1) := funext fun a => Fin.ext (by
    match a with | ⟨0, _⟩ => rfl)
  rw [val_main_v34_apply, val_main_v31_apply, val_main_v33_apply, val_main_v32_apply]
  unfold Cert.GinSpec.logits
  simp only [el, er, eb, val_main_v30_apply]
  rfl

/-- A row's maximum as the reference takes it: the fold of `max` from -∞ over the row, and `max` against -∞ again. -/
theorem rowMax_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) (i : S100000.Idx) :
    val_main_call1_v2 (F := Ideal) x0 x1 x2 x3 x4 x5 i = Cert.GinSpec.rowMax (val_main_v34 (F := Ideal) x0 x1 x2 x3 x4 x5) (i 0) := by
  rw [val_main_call1_v2_apply, val_main_call1_v1_apply, val_main_call1_cst_0_apply]
  unfold val_main_call1_v0
  generalize val_main_v34 (F := Ideal) x0 x1 x2 x3 x4 x5 = L
  have hR : Shape.Reduces S100000x40 [1] S100000 := by decide
  have hfold := Host.reduce_eq_fold_single (FloatOps.maximumf (F := Ideal) (φ := .f32)) L (val_main_call1_cst (F := Ideal))
    reducesTo_S100000x40_S100000_d1 hR h_S_ i
  refine (congrArg (max (Ideal.ofBits .f32 0xFF800000#32)) hfold).trans ?_
  unfold Cert.GinSpec.rowMax
  refine (Cert.GinSpec.max_fold_start _ _ _).trans ?_
  refine congrArg (fun f => (Finset.univ : Finset (Fin 40)).fold max (Ideal.ofBits .f32 0xFF800000#32) f)
    (funext fun k => congrArg L (funext fun a => Fin.ext ?_))
  match a with
  | ⟨0, _⟩ => rfl
  | ⟨1, _⟩ => rfl

/-- The shifted logits: each entry minus its row's maximum. -/
theorem shifted_apply (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) (j : S100000x40.Idx) :
    val_main_call1_v5 (F := Ideal) x0 x1 x2 x3 x4 x5 j
      = val_main_v34 (F := Ideal) x0 x1 x2 x3 x4 x5 j - Cert.GinSpec.rowMax (val_main_v34 (F := Ideal) x0 x1 x2 x3 x4 x5) (j 0) := by
  rw [val_main_call1_v5_apply, val_main_call1_v4_apply, val_main_call1_v3_apply, rowMax_eq]
  rfl

/-- The result: the reference's log-softmax is the specification's, of its own logits. -/
theorem result_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v35 (F := Ideal) x0 x1 x2 x3 x4 x5 = Cert.GinSpec.logSoftmax (val_main_v34 (F := Ideal) x0 x1 x2 x3 x4 x5) := by
  funext i
  have ek : ∀ k : Fin 40, idx_main_call1_v7 (idx_main_call1_v8 (idx_main_call1_v10 i)) k = ix2 (i 0) k := fun k =>
    funext fun a => Fin.ext (by match a with | ⟨0, _⟩ => rfl | ⟨1, _⟩ => rfl)
  have hterm : ∀ k : Fin 40,
      val_main_call1_v6 (F := Ideal) x0 x1 x2 x3 x4 x5 (idx_main_call1_v7 (idx_main_call1_v8 (idx_main_call1_v10 i)) k)
        = Ideal.exp (val_main_v34 (F := Ideal) x0 x1 x2 x3 x4 x5 (ix2 (i 0) k) - Cert.GinSpec.rowMax (val_main_v34 (F := Ideal) x0 x1 x2 x3 x4 x5) (i 0)) := fun k => by
    rw [val_main_call1_v6_apply, shifted_apply, ek]
    generalize val_main_v34 (F := Ideal) x0 x1 x2 x3 x4 x5 = L
    rfl
  rw [val_main_v35_apply, val_main_call1_v10_apply, val_main_call1_v9_apply, val_main_call1_v8_apply,
    val_main_call1_v7_apply, val_main_call1_cst_1_apply, shifted_apply]
  unfold Cert.GinSpec.logSoftmax
  simp only [hterm]
  generalize val_main_v34 (F := Ideal) x0 x1 x2 x3 x4 x5 = L
  show (L i - Cert.GinSpec.rowMax L (i 0))
      - Ideal.log (Ideal.ofBits .f32 0x00000000#32 + ∑ k : Fin 40, Ideal.exp (L (ix2 (i 0) k) - Cert.GinSpec.rowMax L (i 0))) = _
  rw [Ideal.ofBits_zero_f32, zero_add]

end Cert.ReferenceIdeal.RefValue

end
-- ==== Proof.lean ====
/-
  A two-layer graph isomorphism network with a log-softmax head, over 100000 nodes and 1600000 edges: the Pallas
  kernel against its jnp reference, as functions on the extended reals.

  Both programs slice the edge list into sources and destinations and form each layer's neighbour aggregate by the
  same gather and scatter-add on the host. The kernel then runs each layer's dense part — `(h + a)·W + b`, followed
  by `max · 0` in the first layer and by a row-wise log-softmax against the row maximum in the second — as a launch
  over 25 blocks of 4000 rows, with the operands narrowed to a shorter float format before the product and the hidden
  layer stored in it; the reference computes the same on whole arrays. On the extended reals a change of float format
  is the identity, a product accumulated into zero is the plain sum over the contracted axis, a lane reduction is
  the same sum or fold of `max` the host's reduction is, and a row of either layer depends only on the same row of
  its inputs, so the 25 blocks are the blocks of one whole-array function: the specification (GinSpec), which both
  programs are shown to compute. No finiteness of the inputs is used: only the two frames carry the precondition.
-/
import proofs.«162975_j41360535060554_2_alg».proof.Defs
import proofs.«162975_j41360535060554_2_alg».proof.Proof.Gen.Kernel
import proofs.«162975_j41360535060554_2_alg».proof.Proof.Gen.Kernel.Frame
import proofs.«162975_j41360535060554_2_alg».proof.Proof.Gen.KernelIdeal
import proofs.«162975_j41360535060554_2_alg».proof.Proof.Gen.KernelIdeal.Frame
import proofs.«162975_j41360535060554_2_alg».proof.Proof.Gen.ReferenceIdeal
import proofs.«162975_j41360535060554_2_alg».proof.Proof.Gen.Pre_finite_inputs
import proofs.«162975_j41360535060554_2_alg».proof.Proof.KernelRun
import proofs.«162975_j41360535060554_2_alg».proof.Proof.KernelStages
import proofs.«162975_j41360535060554_2_alg».proof.Proof.ReferenceSpec
import Idealize.ShloMosaic.Adequacy
import Idealize.ShloMosaic.Init

noncomputable section

namespace Cert.Proof

open Idealize.ShloMosaic Idealize.ShloMosaic.TcCoe Idealize.SL.Sem
open Cert.KernelIdeal.Stages Cert.ReferenceIdeal.ReadP Cert.ReferenceIdeal.RefValue

/-! ## The two programs build their aggregates by the same host operations -/

/-- The reference's first aggregate is the kernel's, of the same features and edge list. -/
theorem aggregate64_eq (x0 : (⟨Cert.ReferenceIdeal.S100000x64, .f32⟩ : BufTy).Contents (Elt Ideal))
    (x1 : (⟨Cert.ReferenceIdeal.S2x1600000, .i32⟩ : BufTy).Contents (Elt Ideal)) :
    val_main_v13 (F := Ideal) x0 x1 = aggregate64 x0 (edgeSrc x1) (edgeDst x1) := rfl

/-- The reference's second aggregate is the kernel's, of the reference's hidden layer and the same edge list. -/
theorem aggregate128_eq (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x128, .f32⟩ : BufTy).Contents (Elt Ideal))
    (x3 : (⟨Cert.ReferenceIdeal.S128, .f32⟩ : BufTy).Contents (Elt Ideal)) :
    val_main_v29 (F := Ideal) x0 x1 x2 x3 = aggregate128 (val_main_v19 (F := Ideal) x0 x1 x2 x3) (edgeSrc x1) (edgeDst x1) := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the specification's result of those
    arguments: the kernel by its two launches read block by block, the reference by its operations read one at a time. -/
theorem algebraic : Cert.algebraic_KernelIdeal_ReferenceIdeal := by
  intro m ρ m' ρ' _ hagree
  refine ⟨fun c => Cert.KernelIdeal.Stages.result m c, ?_, ?_⟩
  · exact (θ_run Cert.KernelIdeal.defs _ _).mono
      (fun r h c => ⟨(h c).1.trans (Cert.KernelIdeal.Stages.exit2_result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [val_main_v35_eq, h0, h1, h2, h3, h4, h5, result_eq, logits_eq, aggregate128_eq, hidden_eq, aggregate64_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
